-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S200000 : Shape := ⟨1, ![200000]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : IVec S200000 32) (main_arg2 : IVec S200000 32) (main_arg3 : FVec F S1024x1024 .f32) (main_arg4 : FVec F S1024 .f32) (main_arg5 : FVec F S1024x1 .f32) (main_arg6 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg5
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg6 main_v13 main_v16
-- ==== Kernel.lean ====
abbrev S50000x512 : Shape := ⟨2, ![50000, 512]⟩
abbrev S200000 : Shape := ⟨1, ![200000]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S200000x1 : Shape := ⟨2, ![200000, 1]⟩
abbrev S200000x512 : Shape := ⟨2, ![200000, 512]⟩
abbrev S512x1024 : Shape := ⟨2, ![512, 1024]⟩
abbrev S1x1024 : Shape := ⟨2, ![1, 1024]⟩
abbrev S1x1 : Shape := ⟨2, ![1, 1]⟩
abbrev S200704x512 : Shape := ⟨2, ![200704, 512]⟩
abbrev S200704x1 : Shape := ⟨2, ![200704, 1]⟩
abbrev S2048x512 : Shape := ⟨2, ![2048, 512]⟩
abbrev S2048x1 : Shape := ⟨2, ![2048, 1]⟩
abbrev S2048x1024 : Shape := ⟨2, ![2048, 1024]⟩
abbrev S2048 : Shape := ⟨1, ![2048]⟩

abbrev nBuf : Space → Nat
  | .hbm => 41
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S200000, .i32⟩
  | .hbm, ⟨2, _⟩ => ⟨S200000, .i32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S50000x512, .bf16⟩
  | .hbm, ⟨8, _⟩ => ⟨S_, .i32⟩
  | .hbm, ⟨9, _⟩ => ⟨S200000, .i32⟩
  | .hbm, ⟨10, _⟩ => ⟨S200000, .i1⟩
  | .hbm, ⟨11, _⟩ => ⟨S_, .i32⟩
  | .hbm, ⟨12, _⟩ => ⟨S200000, .i32⟩
  | .hbm, ⟨13, _⟩ => ⟨S200000, .i32⟩
  | .hbm, ⟨14, _⟩ => ⟨S200000, .i32⟩
  | .hbm, ⟨15, _⟩ => ⟨S200000x1, .i32⟩
  | .hbm, ⟨16, _⟩ => ⟨S200000x512, .bf16⟩
  | .hbm, ⟨17, _⟩ => ⟨S_, .i32⟩
  | .hbm, ⟨18, _⟩ => ⟨S200000, .i32⟩
  | .hbm, ⟨19, _⟩ => ⟨S200000, .i1⟩
  | .hbm, ⟨20, _⟩ => ⟨S_, .i32⟩
  | .hbm, ⟨21, _⟩ => ⟨S200000, .i32⟩
  | .hbm, ⟨22, _⟩ => ⟨S200000, .i32⟩
  | .hbm, ⟨23, _⟩ => ⟨S200000, .i32⟩
  | .hbm, ⟨24, _⟩ => ⟨S200000x1, .i32⟩
  | .hbm, ⟨25, _⟩ => ⟨S200000x512, .bf16⟩
  | .hbm, ⟨26, _⟩ => ⟨S512x1024, .f32⟩
  | .hbm, ⟨27, _⟩ => ⟨S512x1024, .bf16⟩
  | .hbm, ⟨28, _⟩ => ⟨S512x1024, .f32⟩
  | .hbm, ⟨29, _⟩ => ⟨S512x1024, .bf16⟩
  | .hbm, ⟨30, _⟩ => ⟨S1x1024, .f32⟩
  | .hbm, ⟨31, _⟩ => ⟨S1x1024, .f32⟩
  | .hbm, ⟨32, _⟩ => ⟨S1x1, .f32⟩
  | .hbm, ⟨33, _⟩ => ⟨S_, .i32⟩
  | .hbm, ⟨34, _⟩ => ⟨S_, .bf16⟩
  | .hbm, ⟨35, _⟩ => ⟨S200704x512, .bf16⟩
  | .hbm, ⟨36, _⟩ => ⟨S_, .i32⟩
  | .hbm, ⟨37, _⟩ => ⟨S_, .bf16⟩
  | .hbm, ⟨38, _⟩ => ⟨S200704x512, .bf16⟩
  | .hbm, ⟨39, _⟩ => ⟨S200704x1, .f32⟩
  | .hbm, ⟨40, _⟩ => ⟨S200000x1, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S2048x1, .f32⟩
  | .local _ .vmem, ⟨10, _⟩ => ⟨S2048x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call0_v0 : Ref sig .tc := ⟨.hbm, 34, rfl⟩
abbrev main_v22 : Ref sig .tc := ⟨.hbm, 35, rfl⟩
abbrev main_c_4 : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  bcast_S_S200000 : S_.BroadcastsInDim S200000 (![] : Fin 0 → Fin S200000.rank)
  bcast_S200000_S200000x1_0 : S200000.BroadcastsInDim S200000x1 (![0] : Fin 1 → Fin S200000x1.rank)
  slices_S1024x1024_S512x1024_0_0 : S1024x1024.Slices ![0, 0] S512x1024
  slices_S1024x1024_S512x1024_512_0 : S1024x1024.Slices ![512, 0] S512x1024
  shapeCasts_S1024_S1x1024 : S1024.ShapeCasts S1x1024
  shapeCasts_S1024x1_S1x1024 : S1024x1.ShapeCasts S1x1024
  shapeCasts_S1_S1x1 : S1.ShapeCasts S1x1
  pads_S200000x512_S200704x512_07040_000 : S200000x512.Pads (![0, 0] : Fin 2 → Nat) ![704, 0] ![0, 0] S200704x512
  h_S_ : 0 < S_.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  slices_S200704x1_S200000x1_0_0 : S200704x1.Slices ![0, 0] S200000x1
  gather_S50000x512_S200000x1_S200000x512_1_0_n_n_0_1_1512_wf : GatherDims.WF S50000x512 S200000x1 S200000x512 [1] [0] [] [0] [] 1 ![1, 512]
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S200704x512.size a
  hwx0_0 : ∀ i : grid0.Coords, EltTy.bits .bf16 = 32 ∨ (Rect.block (s := S200704x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S200704x512.size a
  hwx0_1 : ∀ i : grid0.Coords, EltTy.bits .bf16 = 32 ∨ (Rect.block (s := S200704x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S200704x1.size a
  hwx0_7 : ∀ i : grid0.Coords, EltTy.bits .f32 = 32 ∨ (Rect.block (s := S200704x1) S2048x1.size (cc0_transform_7 i) (hinb0_7 i)).WholeWords (EltTy.packing .f32)

variable [Facts₀]

def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v22) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x512 : Shape := ⟨2, ![50000, 512]⟩
abbrev S200000 : Shape := ⟨1, ![200000]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S200000x1 : Shape := ⟨2, ![200000, 1]⟩
abbrev S200000x512 : Shape := ⟨2, ![200000, 512]⟩
abbrev S200000x1024 : Shape := ⟨2, ![200000, 1024]⟩
abbrev S1x1024 : Shape := ⟨2, ![1, 1024]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S200000, .i32⟩
  | .hbm, ⟨2, _⟩ => ⟨S200000, .i32⟩
  | .hbm, ⟨3, _⟩ => ⟨S1024x1024, .f32⟩
  | .hbm, ⟨4, _⟩ => ⟨S1024, .f32⟩
  | .hbm, ⟨5, _⟩ => ⟨S1024x1, .f32⟩
  | .hbm, ⟨6, _⟩ => ⟨S1, .f32⟩
  | .hbm, ⟨7, _⟩ => ⟨S_, .i32⟩
  | .hbm, ⟨8, _⟩ => ⟨S200000, .i32⟩
  | .hbm, ⟨9, _⟩ => ⟨S200000, .i1⟩
  | .hbm, ⟨10, _⟩ => ⟨S_, .i32⟩
  | .hbm, ⟨11, _⟩ => ⟨S200000, .i32⟩
  | .hbm, ⟨12, _⟩ => ⟨S200000, .i32⟩
  | .hbm, ⟨13, _⟩ => ⟨S200000, .i32⟩
  | .hbm, ⟨14, _⟩ => ⟨S200000x1, .i32⟩
  | .hbm, ⟨15, _⟩ => ⟨S200000x512, .f32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x512, .f32⟩
  | .hbm, ⟨25, _⟩ => ⟨S200000x1024, .f32⟩
  | .hbm, ⟨26, _⟩ => ⟨S200000x1024, .f32⟩
  | .hbm, ⟨27, _⟩ => ⟨S1x1024, .f32⟩
  | .hbm, ⟨28, _⟩ => ⟨S200000x1024, .f32⟩
  | .hbm, ⟨29, _⟩ => ⟨S200000x1024, .f32⟩
  | .hbm, ⟨30, _⟩ => ⟨S_, .f32⟩
  | .hbm, ⟨31, _⟩ => ⟨S200000x1024, .f32⟩
  | .hbm, ⟨32, _⟩ => ⟨S200000x1024, .f32⟩
  | .hbm, ⟨33, _⟩ => ⟨S200000x1, .f32⟩
  | .hbm, ⟨34, _⟩ => ⟨S1x1, .f32⟩
  | .hbm, ⟨35, _⟩ => ⟨S200000x1, .f32⟩
  | .hbm, ⟨36, _⟩ => ⟨S200000x1, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x512_S200000x512_S200000x1024_d1 : Shape.Concatenates [S200000x512, S200000x512] S200000x1024 1
  bcast_S1024_S1x1024_1 : S1024.BroadcastsInDim S1x1024 (![1] : Fin 1 → Fin S1x1024.rank)
  bcast_S1x1024_S200000x1024_0_1 : S1x1024.BroadcastsInDim S200000x1024 (![0, 1] : Fin 2 → Fin S200000x1024.rank)
  bcast_S_S200000x1024 : S_.BroadcastsInDim S200000x1024 (![] : Fin 0 → Fin S200000x1024.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S50000x512_S200000x1_S200000x512_1_0_n_n_0_1_1512_wf : GatherDims.WF S50000x512 S200000x1 S200000x512 [1] [0] [] [0] [] 1 ![1, 512]
  dot_S200000x1024_S1024x1024_S200000x1024_1_0_0_1_n_n_wf : DotDims.WF S200000x1024 S1024x1024 S200000x1024 [1] [0] [0] [1] [] []
  dot_S200000x1024_S1024x1_S200000x1_1_0_0_1_n_n_wf : DotDims.WF S200000x1024 S1024x1 S200000x1 [1] [0] [0] [1] [] []

variable [Facts₀]

def gather_S50000x512_S200000x1_S200000x512_1_0_n_n_0_1_1512 : GatherDims S50000x512 S200000x1 S200000x512 where
  offsetDims := [1]
  collapsedSliceDims := [0]
  operandBatchingDims := []
  startIndicesBatchingDims := []
  startIndexMap := [0]
  indexVectorDim := 1
  sliceSizes := ![1, 512]
  wf := gather_S50000x512_S200000x1_S200000x512_1_0_n_n_0_1_1512_wf
def dot_S200000x1024_S1024x1024_S200000x1024_1_0_0_1_n_n : DotDims S200000x1024 S1024x1024 S200000x1024 where
  lhsContracting := [1]
  rhsContracting := [0]
  lhsNonContracting := [0]
  rhsNonContracting := [1]
  lhsBatch := []
  rhsBatch := []
  wf := dot_S200000x1024_S1024x1024_S200000x1024_1_0_0_1_n_n_wf
def dot_S200000x1024_S1024x1_S200000x1_1_0_0_1_n_n : DotDims S200000x1024 S1024x1 S200000x1 where
  lhsContracting := [1]
  rhsContracting := [0]
  lhsNonContracting := [0]
  rhsNonContracting := [1]
  lhsBatch := []
  rhsBatch := []
  wf := dot_S200000x1024_S1024x1_S200000x1_1_0_0_1_n_n_wf

class Facts : Prop extends Facts₀ where

variable [Facts]
-- ==== Proof.Score.lean ====
/-
  The score of one edge, as a function of what it depends on.

  An edge with endpoint feature rows `xs`, `xd` (512 entries each) is scored by a two-layer perceptron: the hidden
  unit `j` is  max(Σₖ xs k · ws k j + Σₖ xd k · wd k j + b1 j, 0),  where `ws` and `wd` are the upper and lower
  halves of the first weight matrix, and the score is  Σⱼ hidden j · w2 j + b2.  All arithmetic is on the extended
  reals; the threshold of the rectifier is kept as the float word it is printed with, never evaluated.

  The same number is obtained from the concatenated row `c = xs ++ xd` (1024 entries) and the whole first weight
  matrix `W`: a sum over 1024 indices is the sum over the first 512 plus the sum over the last 512, which needs only
  that addition is commutative and associative — true on the extended reals, infinities included.
-/
import Mathlib
import Idealize.ShloMosaic.PureOps.Ideal

namespace Cert.EdgeScore

open Idealize.ShloMosaic

/-- Index `k` of the first half of a range of 1024. -/
abbrev lo (k : Fin 512) : Fin 1024 := ⟨k.val, by omega⟩
/-- Index `k` of the second half of a range of 1024. -/
abbrev hi (k : Fin 512) : Fin 1024 := ⟨512 + k.val, by omega⟩

/-- The score of one edge: Σⱼ max(Σₖ xs k · ws k j + Σₖ xd k · wd k j + b1 j, 0) · w2 j + b2. -/
noncomputable def score (xs xd : Fin 512 → EReal) (ws wd : Fin 512 → Fin 1024 → EReal) (b1 w2 : Fin 1024 → EReal)
    (b2 : EReal) : EReal :=
  (∑ j : Fin 1024, max ((∑ k : Fin 512, xs k * ws k j) + (∑ k : Fin 512, xd k * wd k j) + b1 j)
      (Ideal.ofBits .f32 0x00000000#32) * w2 j) + b2

/-- A sum over 1024 indices is the sum over the first half plus the sum over the second half. -/
theorem sum_halves (f : Fin 1024 → EReal) :
    ∑ k : Fin 1024, f k = (∑ k : Fin 512, f (lo k)) + ∑ k : Fin 512, f (hi k) :=
  Fin.sum_univ_add (a := 512) (b := 512) f

/-- The perceptron on the concatenated row `c` with the whole first weight matrix `W` is the score of the two
    halves of `c` against the two halves of `W`. -/
theorem score_of_concat (c : Fin 1024 → EReal) (W : Fin 1024 → Fin 1024 → EReal) (b1 w2 : Fin 1024 → EReal) (b2 : EReal) :
    (∑ j : Fin 1024, max ((∑ k : Fin 1024, c k * W k j) + b1 j) (Ideal.ofBits .f32 0x00000000#32) * w2 j) + b2
      = score (fun k => c (lo k)) (fun k => c (hi k)) (fun k j => W (lo k) j) (fun k j => W (hi k) j) b1 w2 b2 := by
  unfold score
  refine congrArg (· + b2) (Finset.sum_congr rfl fun j _ => ?_)
  rw [sum_halves fun k => c k * W k j]

end Cert.EdgeScore
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  What the kernel body computes for one row of a block.

  The body loads a block of 2048 source rows and a block of 2048 destination rows (512 features each), the two
  halves of the first weight matrix (512 × 1024 each), the hidden bias and the output weights as rows of 1024, and
  the output bias as a 1 × 1 array. Its one stored value is a column of 2048 entries. Read at row `r` over the
  extended reals that entry is the edge score of row `r` of the two feature blocks: the two matrix products are
  sums over the 512 features, the bias row and the output-weight row are broadcast down the rows, the rectifier is
  a maximum with the zero word, the lane reduction is the sum over the 1024 hidden units, and the identity casts
  drop out.
-/
import proofs.«174488_j23252952940858_2_alg».proof.Proof.Gen.KernelIdeal.Skeleton
import proofs.«174488_j23252952940858_2_alg».proof.Proof.Score
import proofs.«174488_j23252952940858_2_alg».proof.Proof.LibDot
import proofs.«174488_j23252952940858_2_alg».proof.Proof.LibRowSum
import proofs.«174488_j23252952940858_2_alg».proof.Proof.LibColumn
import Idealize.ShloMosaic.Lib.ValueLayout
import Idealize.ShloMosaic.Lib.Pipeline.Value

noncomputable section

namespace Cert.KernelIdeal.Edge

open Idealize.ShloMosaic Idealize.ShloMosaic.ValueIdx Cert.KernelIdeal Cert.KernelIdeal.Gen Cert.EdgeScore

/-- The body's matrix product contracts the columns of its left operand with the rows of its right operand. -/
theorem dot_plain : Cert.LibDot.Plain (M := 2048) (K := 512) (N := 1024) dot_S2048x512_S512x1024_S2048x1024_1_0_0_1_n_n where
  hrank := rfl
  hs := rfl
  hl0 := fun j k => by
    unfold DotDims.lhsIdx
    rw [dif_neg (show ¬(0 : Fin S2048x512.rank) ∈ dot_S2048x512_S512x1024_S2048x1024_1_0_0_1_n_n.lhsBatch by decide),
      dif_pos (show (0 : Fin S2048x512.rank) ∈ dot_S2048x512_S512x1024_S2048x1024_1_0_0_1_n_n.lhsNonContracting by decide)]
    rfl
  hl1 := fun j k => dot_S2048x512_S512x1024_S2048x1024_1_0_0_1_n_n.lhsIdx_val_of_single rfl j k
  hr0 := fun j k => dot_S2048x512_S512x1024_S2048x1024_1_0_0_1_n_n.rhsIdx_val_of_single rfl j k
  hr1 := fun j k => by
    unfold DotDims.rhsIdx
    rw [dif_neg (show ¬(1 : Fin S512x1024.rank) ∈ dot_S2048x512_S512x1024_S2048x1024_1_0_0_1_n_n.rhsBatch by decide),
      dif_pos (show (1 : Fin S512x1024.rank) ∈ dot_S2048x512_S512x1024_S2048x1024_1_0_0_1_n_n.rhsNonContracting by decide)]
    rfl

/-- The stored column at row `r` is the edge score of row `r` of the loaded blocks. -/
theorem pay_apply (x0 x5 : Vec Ideal S2048x512 .bf16) (x2 x7 : Vec Ideal S512x1024 .bf16)
    (x11 x17 : Vec Ideal S1x1024 .f32) (x23 : Vec Ideal S1x1 .f32) (r : Fin 2048) (u : Fin 1) :
    k0_pay1 (F := Ideal) x0 x2 x5 x7 x11 x17 x23 (ix2 r u)
      = score (fun k => x0 (ix2 r k)) (fun k => x5 (ix2 r k)) (fun k j => x2 (ix2 k j)) (fun k j => x7 (ix2 k j))
          (fun j => x11 (ix2 (0 : Fin 1) j)) (fun j => x17 (ix2 (0 : Fin 1) j)) (x23 (ix2 (0 : Fin 1) (0 : Fin 1))) := by
  unfold k0_pay1 score
  simp only [shapeCast_self]
  refine (addf_apply _ _ _).trans ?_
  refine congrArg₂ (· + ·) ?_ ?_
  · -- the lane sum over the hidden units
    refine (shapeCast_a_a1_apply _ _ r u).trans ?_
    refine (multiReduction_add_rows_apply _ _ _ _ r).trans ?_
    refine Finset.sum_congr rfl fun j _ => ?_
    refine (mulf_apply _ _ _).trans ?_
    refine congrArg₂ (· * ·) ?_ ?_
    · refine (maximumf_apply _ _ _).trans ?_
      refine congrArg₂ max ?_ rfl
      refine (addf_apply _ _ _).trans ?_
      refine congrArg₂ (· + ·) ?_ ?_
      · refine (addf_apply _ _ _).trans ?_
        exact congrArg₂ (· + ·) (Cert.LibDot.matmul_ix2 dot_plain none _ _ r j) (Cert.LibDot.matmul_ix2 dot_plain none _ _ r j)
      · exact broadcastTo_1b_ab_apply _ _ r j
    · exact broadcastTo_1b_ab_apply _ _ r j
  · -- the output bias, one number for every row
    refine (broadcastTo_1b_ab_apply _ _ r u).trans ?_
    obtain rfl : u = 0 := Subsingleton.elim _ _
    rfl

end Cert.KernelIdeal.Edge

end
-- ==== Proof.Blocks.lean ====
/-
  From blocks to the array: what the output array holds after the region.

  The grid has 98 points. At point `t` the two feature windows stage rows `2048·t … 2048·t + 2047` of the padded
  feature arrays, the five parameter windows stage their whole arrays at every point, and the output window writes
  back rows `2048·t … 2048·t + 2047` of the 200704 × 1 output array. So what point `t` writes back is block `t` of
  ONE whole-array function: row `e` holds the score of row `e` of the padded source and destination features
  (`paddedScores`). Every row lies in the block of the point `e / 2048`, so the 98 blocks cover the array and the
  array ends holding that function.
-/
import proofs.«174488_j23252952940858_2_alg».proof.Proof.Gen.KernelIdeal.Frame
import proofs.«174488_j23252952940858_2_alg».proof.Proof.Body
import Idealize.ShloMosaic.Lib.Pipeline.Value

noncomputable section

namespace Cert.KernelIdeal.Edge

open Idealize.ShloMosaic Idealize.ShloMosaic.TcCoe Idealize.ShloMosaic.ValueIdx Idealize.SL.Sem
open Idealize.ShloMosaic.Pipeline (Dat)
open Cert.KernelIdeal Cert.KernelIdeal.Gen Cert.EdgeScore

variable (m : (ℓ : Loc nD τ sig) → Buf (Elt Ideal) ℓ)

theorem hz : (![0, 0] : Fin 2 → Nat) = fun _ => 0 := funext fun a => by fin_cases a <;> rfl

/-- Two scores agree when everything they depend on agrees. -/
theorem score_congr {xs xs' xd xd' : Fin 512 → EReal} {ws ws' wd wd' : Fin 512 → Fin 1024 → EReal}
    {b1 b1' w2 w2' : Fin 1024 → EReal} {b2 b2' : EReal} (h1 : ∀ k, xs k = xs' k) (h2 : ∀ k, xd k = xd' k)
    (h3 : ∀ k j, ws k j = ws' k j) (h4 : ∀ k j, wd k j = wd' k j) (h5 : ∀ j, b1 j = b1' j) (h6 : ∀ j, w2 j = w2' j)
    (h7 : b2 = b2') : score xs xd ws wd b1 w2 b2 = score xs' xd' ws' wd' b1' w2' b2' := by
  obtain rfl : xs = xs' := funext h1
  obtain rfl : xd = xd' := funext h2
  obtain rfl : ws = ws' := funext fun k => funext (h3 k)
  obtain rfl : wd = wd' := funext fun k => funext (h4 k)
  obtain rfl : b1 = b1' := funext h5
  obtain rfl : w2 = w2' := funext h6
  rw [h7]

/-- The score of every one of the 200704 padded rows, from the seven arrays the region stages. -/
def paddedScores (A0 A1 : S200704x512.Idx → EReal) (A2 A3 : S512x1024.Idx → EReal) (A4 A5 : S1x1024.Idx → EReal)
    (A6 : S1x1.Idx → EReal) : S200704x1.Idx → EReal :=
  fun i => score (fun k => A0 (ix2 (i 0) k)) (fun k => A1 (ix2 (i 0) k)) (fun k j => A2 (ix2 k j)) (fun k j => A3 (ix2 k j))
    (fun j => A4 (ix2 (0 : Fin 1) j)) (fun j => A5 (ix2 (0 : Fin 1) j)) (A6 (ix2 (0 : Fin 1) (0 : Fin 1)))

theorem paddedScores_apply (A0 A1 : S200704x512.Idx → EReal) (A2 A3 : S512x1024.Idx → EReal) (A4 A5 : S1x1024.Idx → EReal)
    (A6 : S1x1.Idx → EReal) (e : Fin 200704) (u : Fin 1) :
    paddedScores A0 A1 A2 A3 A4 A5 A6 (ix2 e u)
      = score (fun k => A0 (ix2 e k)) (fun k => A1 (ix2 e k)) (fun k j => A2 (ix2 k j)) (fun k j => A3 (ix2 k j))
          (fun j => A4 (ix2 (0 : Fin 1) j)) (fun j => A5 (ix2 (0 : Fin 1) j)) (A6 (ix2 (0 : Fin 1) (0 : Fin 1))) := rfl

/-- The output array's whole-array function: the padded rows' scores from the arrays as the region finds them. -/
def G (c : Dev nD) : S200704x1.Idx → EReal :=
  paddedScores (V m c main_v22) (V m c main_v23) (V m c main_v16) (V m c main_v18) (V m c main_v19) (V m c main_v20) (V m c main_v21)

/-- The printed index maps, decided over the grid: the feature windows and the output window are on block row `t`,
    the parameter windows on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each window's block, read at an index -/

theorem blk0_apply (c : Dev nD) (t : Fin cfg0.N) (r : Fin 2048) (k : Fin 512) (e' : Fin 200704) (he : e'.val = t.val * 2048 + r.val) :
    (iblk m c 0 t : Vec Ideal S2048x512 .bf16) (ix2 r k) = (V m c main_v22 : S200704x512.Idx → EReal) (ix2 e' k) := by
  obtain ⟨h0, h1, -⟩ := idx_facts t
  unfold iblk
  rw [View.read_apply]
  show (V m c main_v22 : S200704x512.Idx → EReal) _ = _
  refine congrArg (V m c main_v22 : S200704x512.Idx → EReal) (funext fun a => Fin.ext ?_)
  match a with
  | ⟨0, _⟩ => show win0_0.index t (0 : Fin 2) * 2048 + 1 * r.val = e'.val; rw [h0, he]; omega
  | ⟨1, _⟩ => show win0_0.index t (1 : Fin 2) * 512 + 1 * k.val = k.val; rw [h1]; omega

theorem blk1_apply (c : Dev nD) (t : Fin cfg0.N) (r : Fin 2048) (k : Fin 512) (e' : Fin 200704) (he : e'.val = t.val * 2048 + r.val) :
    (iblk m c 1 t : Vec Ideal S2048x512 .bf16) (ix2 r k) = (V m c main_v23 : S200704x512.Idx → EReal) (ix2 e' k) := by
  obtain ⟨-, -, h0, h1, -⟩ := idx_facts t
  unfold iblk
  rw [View.read_apply]
  show (V m c main_v23 : S200704x512.Idx → EReal) _ = _
  refine congrArg (V m c main_v23 : S200704x512.Idx → EReal) (funext fun a => Fin.ext ?_)
  match a with
  | ⟨0, _⟩ => show win0_1.index t (0 : Fin 2) * 2048 + 1 * r.val = e'.val; rw [h0, he]; omega
  | ⟨1, _⟩ => show win0_1.index t (1 : Fin 2) * 512 + 1 * k.val = k.val; rw [h1]; omega

theorem blk2_apply (c : Dev nD) (t : Fin cfg0.N) (k : Fin 512) (j : Fin 1024) :
    (iblk m c 2 t : Vec Ideal S512x1024 .bf16) (ix2 k j) = (V m c main_v16 : S512x1024.Idx → EReal) (ix2 k j) := by
  obtain ⟨-, -, -, -, h0, h1, -⟩ := idx_facts t
  unfold iblk
  rw [View.read_apply]
  show (V m c main_v16 : S512x1024.Idx → EReal) _ = _
  refine congrArg (V m c main_v16 : S512x1024.Idx → EReal) (funext fun a => Fin.ext ?_)
  match a with
  | ⟨0, _⟩ => show win0_2.index t (0 : Fin 2) * 512 + 1 * k.val = k.val; rw [h0]; omega
  | ⟨1, _⟩ => show win0_2.index t (1 : Fin 2) * 1024 + 1 * j.val = j.val; rw [h1]; omega

theorem blk3_apply (c : Dev nD) (t : Fin cfg0.N) (k : Fin 512) (j : Fin 1024) :
    (iblk m c 3 t : Vec Ideal S512x1024 .bf16) (ix2 k j) = (V m c main_v18 : S512x1024.Idx → EReal) (ix2 k j) := by
  obtain ⟨-, -, -, -, -, -, h0, h1, -⟩ := idx_facts t
  unfold iblk
  rw [View.read_apply]
  show (V m c main_v18 : S512x1024.Idx → EReal) _ = _
  refine congrArg (V m c main_v18 : S512x1024.Idx → EReal) (funext fun a => Fin.ext ?_)
  match a with
  | ⟨0, _⟩ => show win0_3.index t (0 : Fin 2) * 512 + 1 * k.val = k.val; rw [h0]; omega
  | ⟨1, _⟩ => show win0_3.index t (1 : Fin 2) * 1024 + 1 * j.val = j.val; rw [h1]; omega

theorem blk4_apply (c : Dev nD) (t : Fin cfg0.N) (j : Fin 1024) :
    (iblk m c 4 t : Vec Ideal S1x1024 .f32) (ix2 (0 : Fin 1) j) = (V m c main_v19 : S1x1024.Idx → EReal) (ix2 (0 : Fin 1) j) := by
  obtain ⟨-, -, -, -, -, -, -, -, h0, h1, -⟩ := idx_facts t
  unfold iblk
  rw [View.read_apply]
  show (V m c main_v19 : S1x1024.Idx → EReal) _ = _
  refine congrArg (V m c main_v19 : S1x1024.Idx → EReal) (funext fun a => Fin.ext ?_)
  match a with
  | ⟨0, _⟩ => show win0_4.index t (0 : Fin 2) * 1 + 1 * 0 = 0; rw [h0]
  | ⟨1, _⟩ => show win0_4.index t (1 : Fin 2) * 1024 + 1 * j.val = j.val; rw [h1]; omega

theorem blk5_apply (c : Dev nD) (t : Fin cfg0.N) (j : Fin 1024) :
    (iblk m c 5 t : Vec Ideal S1x1024 .f32) (ix2 (0 : Fin 1) j) = (V m c main_v20 : S1x1024.Idx → EReal) (ix2 (0 : Fin 1) j) := by
  obtain ⟨-, -, -, -, -, -, -, -, -, -, h0, h1, -⟩ := idx_facts t
  unfold iblk
  rw [View.read_apply]
  show (V m c main_v20 : S1x1024.Idx → EReal) _ = _
  refine congrArg (V m c main_v20 : S1x1024.Idx → EReal) (funext fun a => Fin.ext ?_)
  match a with
  | ⟨0, _⟩ => show win0_5.index t (0 : Fin 2) * 1 + 1 * 0 = 0; rw [h0]
  | ⟨1, _⟩ => show win0_5.index t (1 : Fin 2) * 1024 + 1 * j.val = j.val; rw [h1]; omega

theorem blk6_apply (c : Dev nD) (t : Fin cfg0.N) :
    (iblk m c 6 t : Vec Ideal S1x1 .f32) (ix2 (0 : Fin 1) (0 : Fin 1)) = (V m c main_v21 : S1x1.Idx → EReal) (ix2 (0 : Fin 1) (0 : Fin 1)) := by
  obtain ⟨-, -, -, -, -, -, -, -, -, -, -, -, h0, h1, -⟩ := idx_facts t
  unfold iblk
  rw [View.read_apply]
  show (V m c main_v21 : S1x1.Idx → EReal) _ = _
  refine congrArg (V m c main_v21 : S1x1.Idx → EReal) (funext fun a => Fin.ext ?_)
  match a with
  | ⟨0, _⟩ => show win0_6.index t (0 : Fin 2) * 1 + 1 * 0 = 0; rw [h0]
  | ⟨1, _⟩ => show win0_6.index t (1 : Fin 2) * 1 + 1 * 0 = 0; rw [h1]

/-! ## What a point writes back -/

/-- Row `r` of what the body leaves at point `t` is the score of padded row `2048·t + r`. -/
theorem block_row (c : Dev nD) (t : Fin cfg0.N) (r : Fin 2048) (u : Fin 1) (e' : Fin 200704) (he : e'.val = t.val * 2048 + r.val) :
    k0_pay1 (F := Ideal) (iblk m c 0 t) (iblk m c 2 t) (iblk m c 1 t) (iblk m c 3 t) (iblk m c 4 t) (iblk m c 5 t) (iblk m c 6 t) (ix2 r u)
      = G m c (ix2 e' u) := by
  refine (pay_apply (iblk m c 0 t) (iblk m c 1 t) (iblk m c 2 t) (iblk m c 3 t) (iblk m c 4 t) (iblk m c 5 t) (iblk m c 6 t) r u).trans ?_
  unfold G
  rw [paddedScores_apply]
  exact score_congr (fun k => blk0_apply m c t r k e' he) (fun k => blk1_apply m c t r k e' he) (fun k j => blk2_apply m c t k j)
    (fun k j => blk3_apply m c t k j) (fun j => blk4_apply m c t j) (fun j => blk5_apply m c t j) (blk6_apply m c t)

/-- WHAT POINT `t` WRITES BACK is block `t` of the padded rows' scores. -/
theorem flushed_eq (c : Dev nD) (t : Fin cfg0.N) :
    (dats m 0 c).flushed 7 t = ((cfg0.win 7).blk t).view.read (Elt Ideal) (G m c) := by
  obtain ⟨-, -, -, -, -, -, -, -, -, -, -, -, -, -, h70, h71⟩ := idx_facts t
  have hN : t.val < 98 := Nat.lt_of_lt_of_eq t.isLt (N_0 : cfg0.N = 98)
  show (cfg0.win 7).cut (grid0.coords t) ((dats m 0 c).after 7 t) = _
  rw [after0_7]
  unfold out0_7
  rw [View.canon_unit_zero hz]
  simp only [View.ld_unit_zero (S := S2048x512) hz, View.ld_unit_zero (S := S512x1024) hz, View.ld_unit_zero (S := S1x1024) hz,
    View.ld_unit_zero (S := S1x1) hz]
  funext y
  have hy0 : (y 0).val < 2048 := (y 0).isLt
  have hy1 : (y 1).val < 1 := (y 1).isLt
  have hy : y = ix2 (⟨(y 0).val, hy0⟩ : Fin 2048) (⟨(y 1).val, hy1⟩ : Fin 1) :=
    funext fun a => Fin.ext (by match a with | ⟨0, _⟩ => rfl | ⟨1, _⟩ => rfl)
  rw [View.read_apply]
  show k0_pay1 (F := Ideal) (iblk m c 0 t) (iblk m c 2 t) (iblk m c 1 t) (iblk m c 3 t) (iblk m c 4 t) (iblk m c 5 t) (iblk m c 6 t) y = G m c _
  refine (congrArg (k0_pay1 (F := Ideal) (iblk m c 0 t) (iblk m c 2 t) (iblk m c 1 t) (iblk m c 3 t) (iblk m c 4 t) (iblk m c 5 t) (iblk m c 6 t)) hy).trans ?_
  refine (block_row m c t ⟨(y 0).val, hy0⟩ ⟨(y 1).val, hy1⟩ ⟨t.val * 2048 + (y 0).val, by omega⟩ rfl).trans ?_
  refine congrArg (G m c) (funext fun a => Fin.ext ?_)
  match a with
  | ⟨0, _⟩ => show t.val * 2048 + (y 0).val = win0_7.index t (0 : Fin 2) * 2048 + 1 * (y 0).val; rw [h70]; omega
  | ⟨1, _⟩ => show (y 1).val = win0_7.index t (1 : Fin 2) * 1 + 1 * (y 1).val; rw [h71]; omega

/-! ## The cover, and the array after the region -/

/-- A row of the output array is in point `t`'s block iff each coordinate is in the block's range on its axis. -/
theorem mem_blk (t : Fin cfg0.N) (i : S200704x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v24).slice (win0_7.rect t)).set ↔ _
  rw [View.set_slice_whole, Rect.mem_set_unit]
  exact Iff.rfl

/-- Every row of the output array is in the block some point writes back: row `e` in that of point `e / 2048`. -/
theorem cover (i : S200704x1.Idx) : ∃ t : Fin cfg0.N, (cfg0.win 7).flush t = true ∧ i ∈ ((cfg0.win 7).blk t).view.set := by
  have hi0 : (i 0).val < 200704 := (i 0).isLt
  have hi1 : (i 1).val < 1 := (i 1).isLt
  have ht : (i 0).val / 2048 < cfg0.N := by rw [show cfg0.N = 98 from N_0]; omega
  obtain ⟨-, -, -, -, -, -, -, -, -, -, -, -, -, -, h70, h71⟩ := idx_facts ⟨(i 0).val / 2048, ht⟩
  refine ⟨⟨(i 0).val / 2048, ht⟩, flush0_7 _, ?_⟩
  rw [mem_blk]
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [h70]
    show (i 0).val / 2048 * 2048 ≤ (i 0).val ∧ (i 0).val < (i 0).val / 2048 * 2048 + 2048
    omega
  | ⟨1, _⟩ =>
    show win0_7.index ⟨(i 0).val / 2048, ht⟩ (1 : Fin 2) * 1 ≤ (i 1).val ∧ (i 1).val < win0_7.index ⟨(i 0).val / 2048, ht⟩ (1 : Fin 2) * 1 + 1
    rw [h71]
    omega

/-- THE OUTPUT ARRAY after the region: the padded rows' scores. -/
theorem final (c : Dev nD) : (dats m 0 c).arrAt 7 cfg0.N = G m c :=
  (dats m 0 c).arrAt_eq_of_cover 7 (G m c) (fun t _ => flushed_eq m c t) cover

end Cert.KernelIdeal.Edge

end
-- ==== Proof.Rows.lean ====
/-
  The rows an index array selects from the node table, and every edge's score.

  Both programs select rows of the 50000 × 512 node table by an array of 200000 integer indices in the same way: an
  index below zero is first moved up by the table's row count, and the rows are then taken by one gather with the
  same dimension numbers. Nothing below depends on which row an index selects, so the selection is kept as one
  function `rowsOf` and never opened: two programs that feed the same table and the same indices to it agree, for
  every index value, in range or not.

  `scores` is the array of all 200000 edge scores: entry `e` is the score of the row selected by the source index
  of edge `e` and the row selected by its destination index, against the upper and lower halves of the first weight
  matrix, the hidden bias, the output weights and the output bias.
-/
import proofs.«174488_j23252952940858_2_alg».proof.Proof.Gen.KernelIdeal
import proofs.«174488_j23252952940858_2_alg».proof.Proof.Score
import Idealize.ShloMosaic.Lib.ValueIdx

noncomputable section

namespace Cert.KernelIdeal.Edge

open Idealize.ShloMosaic Idealize.ShloMosaic.ValueIdx Cert.KernelIdeal Cert.KernelIdeal.Gen Cert.EdgeScore

/-- The index array as the gather takes it: an index below zero moved up by 50000, laid out as a column. -/
def wrapIdx (idx : IVec S200000 32) : IVec S200000x1 32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 50000#32))) idx)

/-- The rows of the node table `x` that the index array `idx` selects, one per edge. (The change of float format
    in front of the gather is the identity on the extended reals.) -/
def rowsOf (x : FVec Ideal S50000x512 .f32) (idx : IVec S200000 32) : FVec Ideal S200000x512 .bf16 :=
  Host.gather gather_S50000x512_S200000x1_S200000x512_1_0_n_n_0_1_1512 (truncf .bf16 x bitsLt_bf16_f32) (wrapIdx idx)

/-- Every edge's score, as one array of 200000 × 1 entries. -/
def scores (x : FVec Ideal S50000x512 .f32) (src dst : IVec S200000 32) (W1 : FVec Ideal S1024x1024 .f32)
    (b1 : FVec Ideal S1024 .f32) (W2 : FVec Ideal S1024x1 .f32) (b2 : FVec Ideal S1 .f32) : FVec Ideal S200000x1 .f32 :=
  fun i => score (fun k => rowsOf x src (ix2 (i 0) k)) (fun k => rowsOf x dst (ix2 (i 0) k))
    (fun k j => W1 (ix2 (lo k) j)) (fun k j => W1 (ix2 (hi k) j)) (fun j => b1 (ix1 j))
    (fun j => W2 (ix2 j (0 : Fin 1))) (b2 (ix1 (0 : Fin 1)))

/-- Entry `(e, u)` of `scores` is edge `e`'s score. -/
theorem scores_apply (x : FVec Ideal S50000x512 .f32) (src dst : IVec S200000 32) (W1 : FVec Ideal S1024x1024 .f32)
    (b1 : FVec Ideal S1024 .f32) (W2 : FVec Ideal S1024x1 .f32) (b2 : FVec Ideal S1 .f32) (e : Fin 200000) (u : Fin 1) :
    scores x src dst W1 b1 W2 b2 (ix2 e u)
      = score (fun k => rowsOf x src (ix2 e k)) (fun k => rowsOf x dst (ix2 e k))
          (fun k j => W1 (ix2 (lo k) j)) (fun k j => W1 (ix2 (hi k) j)) (fun j => b1 (ix1 j))
          (fun j => W2 (ix2 j (0 : Fin 1))) (b2 (ix1 (0 : Fin 1))) := rfl

end Cert.KernelIdeal.Edge

end
-- ==== Proof.Prefix.lean ====
/-
  What the region finds in each array it stages.

  Before the region the program prepares seven arrays from its arguments. The two feature arrays are the rows of
  the node table selected by the source and the destination indices, with 704 rows of padding appended so that the
  200704 rows split into 98 blocks of 2048; a row below 200000 is the selected row itself. The two weight arrays are
  the upper and lower 512 rows of the first weight matrix. The hidden bias, the output weights (a 1024 × 1 column)
  and the output bias are re-laid as rows: entry (0, j) of each row is entry j of the original.
  Each array is first stated as the host operations' term, then read at an index.
-/
import proofs.«174488_j23252952940858_2_alg».proof.Proof.Gen.KernelIdeal.Frame
import proofs.«174488_j23252952940858_2_alg».proof.Proof.Rows
import Idealize.ShloMosaic.Lib.ValueLayout
import Idealize.ShloMosaic.Lib.KernelVsHost
import Idealize.ShloMosaic.Lib.StableHlo.Run

noncomputable section

namespace Cert.KernelIdeal.Edge

open Idealize.ShloMosaic Idealize.ShloMosaic.TcCoe Idealize.ShloMosaic.ValueIdx Idealize.SL.Sem Idealize.ShloMosaic.StableHlo
open Cert.KernelIdeal Cert.KernelIdeal.Gen Cert.EdgeScore

variable (m : (ℓ : Loc nD τ sig) → Buf (Elt Ideal) ℓ)

/-! ## The arrays as terms of the arguments -/

set_option maxHeartbeats 1000000 in
/-- The source features: the selected rows, then 704 rows of padding. -/
theorem V_src (c : Dev nD) : (V m c main_v22 : S200704x512.Idx → EReal)
    = pad S200704x512 ![0, 0] ![704, 0] ![0, 0]
        (rowsOf (m ((c : Thread nD τ).loc main_arg0)) (m ((c : Thread nD τ).loc main_arg1)))
        (sitofp (F := Ideal) .bf16 (constantI S_ 32 0#32)) pads_S200000x512_S200704x512_07040_000 h_S_ := by
  dsimp only [V, V0]
  simp only [hostOps0, hostOps0_1, hostOps0_2, hostOps0_3, List.flatten_cons, List.flatten_nil, List.append_nil,
    List.cons_append, List.nil_append]
  after_results <;> rfl

set_option maxHeartbeats 1000000 in
/-- The destination features: the selected rows, then 704 rows of padding. -/
theorem V_dst (c : Dev nD) : (V m c main_v23 : S200704x512.Idx → EReal)
    = pad S200704x512 ![0, 0] ![704, 0] ![0, 0]
        (rowsOf (m ((c : Thread nD τ).loc main_arg0)) (m ((c : Thread nD τ).loc main_arg2)))
        (sitofp (F := Ideal) .bf16 (constantI S_ 32 0#32)) pads_S200000x512_S200704x512_07040_000 h_S_ := by
  dsimp only [V, V0]
  simp only [hostOps0, hostOps0_1, hostOps0_2, hostOps0_3, List.flatten_cons, List.flatten_nil, List.append_nil,
    List.cons_append, List.nil_append]
  after_results <;> rfl

/-- The upper half of the first weight matrix. -/
theorem V_wup (c : Dev nD) : (V m c main_v16 : S512x1024.Idx → EReal)
    = truncf (F := Ideal) .bf16 (extractStridedSlice S512x1024 ![0, 0] (m ((c : Thread nD τ).loc main_arg3)) slices_S1024x1024_S512x1024_0_0) bitsLt_bf16_f32 := by
  dsimp only [V, V0]
  simp only [hostOps0, hostOps0_1, hostOps0_2, hostOps0_3, List.flatten_cons, List.flatten_nil, List.append_nil,
    List.cons_append, List.nil_append]
  after_results <;> rfl

/-- The lower half of the first weight matrix. -/
theorem V_wlow (c : Dev nD) : (V m c main_v18 : S512x1024.Idx → EReal)
    = truncf (F := Ideal) .bf16 (extractStridedSlice S512x1024 ![512, 0] (m ((c : Thread nD τ).loc main_arg3)) slices_S1024x1024_S512x1024_512_0) bitsLt_bf16_f32 := by
  dsimp only [V, V0]
  simp only [hostOps0, hostOps0_1, hostOps0_2, hostOps0_3, List.flatten_cons, List.flatten_nil, List.append_nil,
    List.cons_append, List.nil_append]
  after_results <;> rfl

/-- The hidden bias as a row. -/
theorem V_b1 (c : Dev nD) : (V m c main_v19 : S1x1024.Idx → EReal)
    = shapeCast S1x1024 (m ((c : Thread nD τ).loc main_arg4)) shapeCasts_S1024_S1x1024 := by
  dsimp only [V, V0]
  simp only [hostOps0, hostOps0_1, hostOps0_2, hostOps0_3, List.flatten_cons, List.flatten_nil, List.append_nil,
    List.cons_append, List.nil_append]
  after_results <;> rfl

/-- The output weights as a row. -/
theorem V_w2 (c : Dev nD) : (V m c main_v20 : S1x1024.Idx → EReal)
    = shapeCast S1x1024 (m ((c : Thread nD τ).loc main_arg5)) shapeCasts_S1024x1_S1x1024 := by
  dsimp only [V, V0]
  simp only [hostOps0, hostOps0_1, hostOps0_2, hostOps0_3, List.flatten_cons, List.flatten_nil, List.append_nil,
    List.cons_append, List.nil_append]
  after_results <;> rfl

/-- The output bias as a 1 × 1 array. -/
theorem V_b2 (c : Dev nD) : (V m c main_v21 : S1x1.Idx → EReal)
    = shapeCast S1x1 (m ((c : Thread nD τ).loc main_arg6)) shapeCasts_S1_S1x1 := by
  dsimp only [V, V0]
  simp only [hostOps0, hostOps0_1, hostOps0_2, hostOps0_3, List.flatten_cons, List.flatten_nil, List.append_nil,
    List.cons_append, List.nil_append]
  after_results <;> rfl

/-! ## The arrays read at an index -/

/-- A row of a padded array below the padding is the row of the array padded. -/
theorem pad_rows_apply (X : S200000x512.Idx → EReal) (z : S_.Idx → EReal) (e' : Fin 200704) (e : Fin 200000)
    (he : e'.val = e.val) (k : Fin 512) :
    pad S200704x512 ![0, 0] ![704, 0] ![0, 0] X z pads_S200000x512_S200704x512_07040_000 h_S_ (ix2 e' k) = X (ix2 e k) :=
  pad_apply_of_inside _ _ _ X z _ _ (ix2 e' k) (ix2 e k) (fun a => by
    match a with
    | ⟨0, _⟩ => show e'.val = 0 + e.val * (0 + 1); omega
    | ⟨1, _⟩ => show k.val = 0 + k.val * (0 + 1); omega)

theorem V_src_apply (c : Dev nD) (e' : Fin 200704) (e : Fin 200000) (he : e'.val = e.val) (k : Fin 512) :
    (V m c main_v22 : S200704x512.Idx → EReal) (ix2 e' k)
      = rowsOf (m ((c : Thread nD τ).loc main_arg0)) (m ((c : Thread nD τ).loc main_arg1)) (ix2 e k) :=
  (congrFun (V_src m c) _).trans (pad_rows_apply _ _ e' e he k)

theorem V_dst_apply (c : Dev nD) (e' : Fin 200704) (e : Fin 200000) (he : e'.val = e.val) (k : Fin 512) :
    (V m c main_v23 : S200704x512.Idx → EReal) (ix2 e' k)
      = rowsOf (m ((c : Thread nD τ).loc main_arg0)) (m ((c : Thread nD τ).loc main_arg2)) (ix2 e k) :=
  (congrFun (V_dst m c) _).trans (pad_rows_apply _ _ e' e he k)

theorem V_wup_apply (c : Dev nD) (k : Fin 512) (j : Fin 1024) :
    (V m c main_v16 : S512x1024.Idx → EReal) (ix2 k j) = m ((c : Thread nD τ).loc main_arg3) (ix2 (lo k) j) :=
  (congrFun (V_wup m c) _).trans
    (slice2_axis0_apply 0 (m ((c : Thread nD τ).loc main_arg3)) slices_S1024x1024_S512x1024_0_0 k j (lo k) (by show k.val = 0 + k.val; omega))

theorem V_wlow_apply (c : Dev nD) (k : Fin 512) (j : Fin 1024) :
    (V m c main_v18 : S512x1024.Idx → EReal) (ix2 k j) = m ((c : Thread nD τ).loc main_arg3) (ix2 (hi k) j) :=
  (congrFun (V_wlow m c) _).trans
    (slice2_axis0_apply 512 (m ((c : Thread nD τ).loc main_arg3)) slices_S1024x1024_S512x1024_512_0 k j (hi k) rfl)

theorem V_b1_apply (c : Dev nD) (j : Fin 1024) :
    (V m c main_v19 : S1x1024.Idx → EReal) (ix2 (0 : Fin 1) j) = m ((c : Thread nD τ).loc main_arg4) (ix1 j) :=
  (congrFun (V_b1 m c) _).trans (shapeCast_a_1a_apply _ _ 0 j)

theorem V_w2_apply (c : Dev nD) (j : Fin 1024) :
    (V m c main_v20 : S1x1024.Idx → EReal) (ix2 (0 : Fin 1) j) = m ((c : Thread nD τ).loc main_arg5) (ix2 j (0 : Fin 1)) :=
  (congrFun (V_w2 m c) _).trans
    (shapeCast_apply (m ((c : Thread nD τ).loc main_arg5)) shapeCasts_S1024x1_S1x1024 (ix2 (0 : Fin 1) j) (ix2 j (0 : Fin 1)) (by
      show (S1024x1.rowMajor (ix2 j (0 : Fin 1))).val = (S1x1024.rowMajor (ix2 (0 : Fin 1) j)).val
      rw [Shape.rowMajor_val_two, Shape.rowMajor_val_two]
      show j.val * 1 + 0 = 0 * 1024 + j.val
      omega))

theorem V_b2_apply (c : Dev nD) :
    (V m c main_v21 : S1x1.Idx → EReal) (ix2 (0 : Fin 1) (0 : Fin 1)) = m ((c : Thread nD τ).loc main_arg6) (ix1 (0 : Fin 1)) :=
  (congrFun (V_b2 m c) _).trans (shapeCast_a_1a_apply _ _ 0 0)

end Cert.KernelIdeal.Edge

end
-- ==== Proof.Tail.lean ====
/-
  The kernel's result.

  After the region one host operation cuts the 200704 × 1 output array down to its first 200000 rows. The output
  array holds the padded rows' scores; a padded row below 200000 is an edge's own pair of selected rows, the staged
  weight arrays are the two halves of the first weight matrix and the re-laid parameters, so each kept row holds the
  edge's score: the result is `scores` of the argument arrays. The padding rows are cut away and never looked at.
-/
import proofs.«174488_j23252952940858_2_alg».proof.Proof.Blocks
import proofs.«174488_j23252952940858_2_alg».proof.Proof.Prefix

noncomputable section

namespace Cert.KernelIdeal.Edge

open Idealize.ShloMosaic Idealize.ShloMosaic.TcCoe Idealize.ShloMosaic.ValueIdx Idealize.SL.Sem Idealize.ShloMosaic.StableHlo
open Cert.KernelIdeal Cert.KernelIdeal.Gen Cert.EdgeScore

variable (m : (ℓ : Loc nD τ sig) → Buf (Elt Ideal) ℓ)

/-- The result buffer as the program leaves it: the first 200000 rows of the output array. -/
theorem tail_eq (c : Dev nD) :
    (Pipeline.afterTail₀ cfgs (dats m) 0 (V0 m) [hostOps1] c main_v25 : S200000x1.Idx → EReal)
      = extractStridedSlice S200000x1 ![0, 0] (G m c) slices_S200704x1_S200000x1_0_0 := by
  unfold Pipeline.afterTail₀
  show StableHlo.after hostOps1 _ (Proc.devRef .tc main_v25) = _
  after_results
  have hA : (Pipeline.withArrays (cfgs 0).spec c (V0 m c) (fun w => (dats m 0 c).arrAt w (cfgs 0).N) (Proc.devRef .tc main_v24)
      : S200704x1.Idx → EReal) = G m c :=
    (Pipeline.withArrays_arr spec0 launch0.win.arr_inj c (V0 m c) (fun w => (dats m 0 c).arrAt w cfg0.N) 7).trans (final m c)
  exact congrArg (fun A : S200704x1.Idx → EReal => extractStridedSlice S200000x1 ![0, 0] A slices_S200704x1_S200000x1_0_0) hA

/-- A padded row below 200000 holds the score of the edge with that number. -/
theorem G_rows (c : Dev nD) (e : Fin 200000) (u : Fin 1) (e' : Fin 200704) (he : e'.val = e.val) :
    G m c (ix2 e' u)
      = scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 e u) := by
  unfold G
  rw [paddedScores_apply, scores_apply]
  exact score_congr (fun k => V_src_apply m c e' e he k) (fun k => V_dst_apply m c e' e he k) (fun k j => V_wup_apply m c k j)
    (fun k j => V_wlow_apply m c k j) (fun j => V_b1_apply m c j) (fun j => V_w2_apply m c j) (V_b2_apply m c)

/-- The result buffer holds every edge's score. -/
theorem result_eq (c : Dev nD) :
    (Pipeline.afterTail₀ cfgs (dats m) 0 (V0 m) [hostOps1] c main_v25 : S200000x1.Idx → EReal)
      = scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_eq]
  funext i
  obtain ⟨e, u, rfl⟩ : ∃ (e : Fin 200000) (u : Fin 1), i = ix2 e u := ⟨i 0, i 1, eq_ix2 i⟩
  exact (slice2_axis0_apply 0 (G m c) slices_S200704x1_S200000x1_0_0 e u ⟨e.val, by omega⟩ (by show e.val = 0 + e.val; omega)).trans
    (G_rows m c e u _ rfl)

/-- The kernel's run, read: every weakly fair execution terminates with the result buffer at every edge's score and
    the argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v25)
          = scores (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Edge

end
-- ==== Proof.Ref.lean ====
/-
  The reference computes every edge's score.

  The reference selects the source rows and the destination rows of the node table, joins each pair into one row of
  1024 entries, multiplies by the whole first weight matrix, adds the hidden bias, rectifies, multiplies by the output
  weights and adds the output bias. Read at edge `e`: the joined row's first 512 entries are the source row and its
  last 512 the destination row, so the product with the whole weight matrix is the sum of the two half products
  (`score_of_concat`), and the result is the edge's score. The selections themselves are the same function of the
  table and the indices as on the kernel's side, and are not opened.
-/
import proofs.«174488_j23252952940858_2_alg».proof.Proof.Gen.ReferenceIdeal.Read
import proofs.«174488_j23252952940858_2_alg».proof.Proof.Rows
import proofs.«174488_j23252952940858_2_alg».proof.Proof.Score
import Idealize.ShloMosaic.Lib.Pipeline.Value
import Idealize.ShloMosaic.Lib.ValueIdx

noncomputable section

namespace Cert.ReferenceIdeal.Edge

open Idealize.ShloMosaic Idealize.ShloMosaic.ValueIdx Cert.ReferenceIdeal Cert.ReferenceIdeal.Gen Cert.ReferenceIdeal.Read Cert.EdgeScore
open Cert.KernelIdeal.Edge (rowsOf scores scores_apply)

variable (x0 : (⟨S50000x512, .f32⟩ : BufTy).Contents (Elt Ideal)) (x1 x2 : (⟨S200000, .i32⟩ : BufTy).Contents (Elt Ideal))
  (x3 : (⟨S1024x1024, .f32⟩ : BufTy).Contents (Elt Ideal)) (x4 : (⟨S1024, .f32⟩ : BufTy).Contents (Elt Ideal))
  (x5 : (⟨S1024x1, .f32⟩ : BufTy).Contents (Elt Ideal)) (x6 : (⟨S1, .f32⟩ : BufTy).Contents (Elt Ideal))

/-! ## The composed index maps, by coordinates -/

theorem lidx20 (e : Fin 200000) (u : Fin 1) (k : Fin 1024) : lidx_main_v20 (ix2 e u) k = ix2 e k :=
  funext fun a => Fin.ext (by match a with | ⟨0, _⟩ => rfl | ⟨1, _⟩ => rfl)
theorem ridx20 (e : Fin 200000) (u : Fin 1) (k : Fin 1024) : ridx_main_v20 (ix2 e u) k = ix2 k u :=
  funext fun a => Fin.ext (by match a with | ⟨0, _⟩ => rfl | ⟨1, _⟩ => rfl)
theorem lidx15 (e : Fin 200000) (j k : Fin 1024) : lidx_main_v15 (ix2 e j) k = ix2 e k :=
  funext fun a => Fin.ext (by match a with | ⟨0, _⟩ => rfl | ⟨1, _⟩ => rfl)
theorem ridx15 (e : Fin 200000) (j k : Fin 1024) : ridx_main_v15 (ix2 e j) k = ix2 k j :=
  funext fun a => Fin.ext (by match a with | ⟨0, _⟩ => rfl | ⟨1, _⟩ => rfl)
theorem idx1617 (e : Fin 200000) (j : Fin 1024) : idx_main_v16 (idx_main_v17 (ix2 e j)) = ix1 j :=
  funext fun a => Fin.ext (by match a with | ⟨0, _⟩ => rfl)
theorem idx2122 (e : Fin 200000) (u : Fin 1) : idx_main_v21 (idx_main_v22 (ix2 e u)) = ix1 (0 : Fin 1) :=
  funext fun a => Fin.ext (by match a with | ⟨0, _⟩ => rfl)

/-! ## The joined row -/

/-- The first 512 entries of the joined row are the source row. -/
theorem joined_lo (e : Fin 200000) (k : Fin 512) :
    val_main_v14 (F := Ideal) x0 x1 x2 (ix2 e (lo k)) = val_main_v6 (F := Ideal) x0 x1 (ix2 e k) := by
  unfold val_main_v14
  exact concatenate_pair_apply_left (t := S200000x1024) (s₁ := S200000x512) (s₂ := S200000x512) (1 : Fin 2)
    (val_main_v6 (F := Ideal) x0 x1) (val_main_v13 (F := Ideal) x0 x2)
    concatenates_S200000x512_S200000x512_S200000x1024_d1 (ix2 e (lo k)) rfl (ix2 e k)
    (fun b => by match b with | ⟨0, _⟩ => rfl | ⟨1, _⟩ => rfl)

/-- The last 512 entries of the joined row are the destination row. -/
theorem joined_hi (e : Fin 200000) (k : Fin 512) :
    val_main_v14 (F := Ideal) x0 x1 x2 (ix2 e (hi k)) = val_main_v13 (F := Ideal) x0 x2 (ix2 e k) := by
  unfold val_main_v14
  exact concatenate_pair_apply_right (t := S200000x1024) (s₁ := S200000x512) (s₂ := S200000x512) (1 : Fin 2)
    (val_main_v6 (F := Ideal) x0 x1) (val_main_v13 (F := Ideal) x0 x2)
    concatenates_S200000x512_S200000x512_S200000x1024_d1 (ix2 e (hi k)) rfl rfl (ix2 e k)
    (fun b hb => by match b with | ⟨0, _⟩ => rfl | ⟨1, _⟩ => exact absurd rfl hb)
    (by show k.val + 512 = 512 + k.val; omega)

/-- The source rows are the same selection from the table as on the kernel's side. -/
theorem rows_src : val_main_v6 (F := Ideal) x0 x1 = rowsOf x0 x1 := rfl
/-- The destination rows are the same selection from the table as on the kernel's side. -/
theorem rows_dst : val_main_v13 (F := Ideal) x0 x2 = rowsOf x0 x2 := rfl

/-! ## The stages at an index -/

/-- Hidden unit `j` of edge `e`: the rectified sum over the joined row against column `j` of the first weight matrix,
    plus the bias. -/
theorem hidden_apply (e : Fin 200000) (j : Fin 1024) :
    val_main_v19 (F := Ideal) x0 x1 x2 x3 x4 (ix2 e j)
      = max ((∑ k : Fin 1024, val_main_v14 (F := Ideal) x0 x1 x2 (ix2 e k) * x3 (ix2 k j)) + x4 (ix1 j))
          (Ideal.ofBits .f32 0x00000000#32) := by
  rw [val_main_v19_apply, val_main_v18_apply, val_main_v15_apply, val_main_v17_apply, val_main_v16_apply,
    val_main_call0_v0_apply, val_main_call0_cst_apply, idx1617]
  simp only [lidx15, ridx15]
  rfl

/-- The reference's result at edge `e`. -/
theorem result_apply (e : Fin 200000) (u : Fin 1) :
    val_main_v23 (F := Ideal) x0 x1 x2 x3 x4 x5 x6 (ix2 e u)
      = (∑ j : Fin 1024, max ((∑ k : Fin 1024, val_main_v14 (F := Ideal) x0 x1 x2 (ix2 e k) * x3 (ix2 k j)) + x4 (ix1 j))
            (Ideal.ofBits .f32 0x00000000#32) * x5 (ix2 j (0 : Fin 1))) + x6 (ix1 (0 : Fin 1)) := by
  rw [val_main_v23_apply, val_main_v20_apply, val_main_v22_apply, val_main_v21_apply, idx2122]
  simp only [lidx20, ridx20, hidden_apply]
  obtain rfl : u = 0 := Subsingleton.elim _ _
  rfl

/-- The reference's result array is the array of every edge's score. -/
theorem result_eq : val_main_v23 (F := Ideal) x0 x1 x2 x3 x4 x5 x6 = scores x0 x1 x2 x3 x4 x5 x6 := by
  funext i
  obtain ⟨e, u, rfl⟩ : ∃ (e : Fin 200000) (u : Fin 1), i = ix2 e u := ⟨i 0, i 1, eq_ix2 i⟩
  rw [result_apply, scores_apply]
  refine (score_of_concat (fun k => val_main_v14 (F := Ideal) x0 x1 x2 (ix2 e k)) (fun k j => x3 (ix2 k j))
    (fun j => x4 (ix1 j)) (fun j => x5 (ix2 j (0 : Fin 1))) (x6 (ix1 (0 : Fin 1)))).trans ?_
  simp only [joined_lo, joined_hi, rows_src, rows_dst]

end Cert.ReferenceIdeal.Edge

end
-- ==== Proof.lean ====
/-
  Edge scoring by a two-layer perceptron: the tiled kernel against the plain reference, over the extended reals.

  Both programs take a node table x (50000 × 512), two index arrays src and dst (200000 edges), a first weight matrix
  W1 (1024 × 1024) with bias b1, and output weights W2 (1024 × 1) with bias b2, and return one score per edge.

  The reference joins the selected source and destination rows of an edge into one row of 1024 entries c, and
  returns  Σⱼ max(Σₖ c k · W1 k j + b1 j, 0) · W2 j + b2.
  The kernel never joins the rows. It pads the two selected-row arrays to 200704 = 98 · 2048 rows, and for each block
  of 2048 edges multiplies the source rows by the upper 512 rows of W1 and the destination rows by the lower 512 rows,
  adds the two products and the bias, rectifies, multiplies by W2 laid out as a row, sums over the 1024 hidden units
  and adds b2; the 704 padding rows are cut away at the end.

  The two agree because a sum over the 1024 entries of the joined row is the sum over its first 512 entries plus the
  sum over its last 512 — commutativity and associativity of addition only, so it holds at the infinities too and
  the finiteness of the inputs is never used. The selection of rows by an index array is the same function of the
  table and the indices in both programs, and is carried as one function without being opened, so the claim holds for
  every index value. Changes of float format are the identity on the extended reals.

  The modules: `Score` (one edge's score and the halves law), `Body` (the kernel body's stored column at a row),
  `Rows` (the row selection and the array of all scores), `Prefix` (the arrays the region stages, read at an index),
  `Blocks` (what a grid point writes back; the blocks cover the output array), `Tail` (the cut after the region; the
  kernel's run), `Ref` (the reference's result at an index). The three frames are the generated ones; the idealization
  rewrote nothing, so `preserves` is trivial.
-/
import proofs.«174488_j23252952940858_2_alg».proof.Defs
import proofs.«174488_j23252952940858_2_alg».proof.Proof.Gen.Kernel
import proofs.«174488_j23252952940858_2_alg».proof.Proof.Gen.Kernel.Frame
import proofs.«174488_j23252952940858_2_alg».proof.Proof.Gen.KernelIdeal
import proofs.«174488_j23252952940858_2_alg».proof.Proof.Gen.KernelIdeal.Frame
import proofs.«174488_j23252952940858_2_alg».proof.Proof.Gen.ReferenceIdeal
import proofs.«174488_j23252952940858_2_alg».proof.Proof.Gen.ReferenceIdeal.Run
import proofs.«174488_j23252952940858_2_alg».proof.Proof.Gen.ReferenceIdeal.Read
import proofs.«174488_j23252952940858_2_alg».proof.Proof.Gen.Pre_finite_inputs
import proofs.«174488_j23252952940858_2_alg».proof.Proof.Tail
import proofs.«174488_j23252952940858_2_alg».proof.Proof.Ref
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, both programs end with the array of every
    edge's score: the kernel by its blocks and the cut after the region, the reference by the halves law. -/
theorem algebraic : Cert.algebraic_KernelIdeal_ReferenceIdeal := by
  intro m ρ m' ρ' _ hagree
  refine ⟨_, Cert.KernelIdeal.Edge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6]
  exact (Cert.ReferenceIdeal.Read.val_main_v23_eq _ _ _ _ _ _ _).trans (Cert.ReferenceIdeal.Edge.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
